-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16 .f32) (main_arg10 : FVec F S16x1 .f32) (main_arg11 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg10
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x32 .f32) (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x3200000 32) (main_arg2 : FVec F S3200000 .f32) (main_arg3 : IVec S100000 32) (main_arg4 : FVec F S128x64 .f32) (main_arg5 : FVec F S64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S3200000x32 : Shape := ⟨2, ![3200000, 32]⟩
abbrev S1x32 : Shape := ⟨2, ![1, 32]⟩
abbrev S256x32 : Shape := ⟨2, ![256, 32]⟩
abbrev S1x16 : Shape := ⟨2, ![1, 16]⟩
abbrev S1x1 : Shape := ⟨2, ![1, 1]⟩
abbrev S256x1 : Shape := ⟨2, ![256, 1]⟩
abbrev S256x16 : Shape := ⟨2, ![256, 16]⟩
abbrev S256 : Shape := ⟨1, ![256]⟩

abbrev nBuf : Space → Nat
  | .hbm => 147
  | .vmem => 16
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S100000x64, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x32, .f32⟩
  | 80 => ⟨S_, .f32⟩
  | 81 => ⟨S100000, .f32⟩
  | 82 => ⟨S3200000x1, .i32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000, .f32⟩
  | 114 => ⟨S3200000, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x32, .f32⟩
  | 124 => ⟨S3200000x1, .f32⟩
  | 125 => ⟨S3200000x32, .f32⟩
  | 126 => ⟨S3200000x32, .f32⟩
  | 127 => ⟨S_, .f32⟩
  | _ => ⟨S100000x128, .f32⟩

abbrev hbmTy0_1 (i : Nat) : BufTy := match i % 128 with
  | 0 => ⟨S100000x32, .f32⟩
  | 1 => ⟨S3200000x1, .i32⟩
  | 2 => ⟨S100000x32, .f32⟩
  | 3 => ⟨S100000, .f32⟩
  | 4 => ⟨S100000x1, .f32⟩
  | 5 => ⟨S100000x32, .f32⟩
  | 6 => ⟨S100000x32, .f32⟩
  | 7 => ⟨S100000x32, .f32⟩
  | 8 => ⟨S1x32, .f32⟩
  | 9 => ⟨S100000x32, .f32⟩
  | 10 => ⟨S100000x32, .f32⟩
  | 11 => ⟨S_, .f32⟩
  | 12 => ⟨S256x32, .f32⟩
  | 13 => ⟨S100000x1, .i32⟩
  | 14 => ⟨S256x32, .f32⟩
  | 15 => ⟨S1x16, .f32⟩
  | 16 => ⟨S1x1, .f32⟩
  | 17 => ⟨S256x1, .f32⟩
  | 18 => ⟨S256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | .local _ .vmem, ⟨10, _⟩ => ⟨S256x32, .f32⟩
  | .local _ .vmem, ⟨11, _⟩ => ⟨S32x16, .f32⟩
  | .local _ .vmem, ⟨12, _⟩ => ⟨S1x16, .f32⟩
  | .local _ .vmem, ⟨13, _⟩ => ⟨S16x1, .f32⟩
  | .local _ .vmem, ⟨14, _⟩ => ⟨S1x1, .f32⟩
  | .local _ .vmem, ⟨15, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  shapeCasts_S16_S1x16 : S16.ShapeCasts S1x16
  shapeCasts_S1_S1x1 : S1.ShapeCasts S1x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  dot_S10000x128_S128x64_S10000x64_1_0_0_1_n_n_wf : DotDims.WF S10000x128 S128x64 S10000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S256x32_S100000x1_S100000x32_1_0_0_1_wf : ScatterDims.WF S256x32 S100000x1 S100000x32 [1] [0] [0] 1
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x32.size a ≤ S256x32.size a
  hwx2_0 : ∀ i : grid2.Coords, EltTy.bits .f32 = 32 ∨ (Rect.block (s := S256x32) S256x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S16x1.size a
  hwx2_3 : ∀ i : grid2.Coords, EltTy.bits .f32 = 32 ∨ (Rect.block (s := S16x1) S16x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v101) S256x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v102) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S16x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v103) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v104) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S256x32 : Shape := ⟨2, ![256, 32]⟩
abbrev S256x16 : Shape := ⟨2, ![256, 16]⟩
abbrev S1x16 : Shape := ⟨2, ![1, 16]⟩
abbrev S256x1 : Shape := ⟨2, ![256, 1]⟩
abbrev S1x1 : Shape := ⟨2, ![1, 1]⟩
abbrev S256 : Shape := ⟨1, ![256]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S100000x64, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x32, .f32⟩
  | 80 => ⟨S_, .f32⟩
  | 81 => ⟨S100000, .f32⟩
  | 82 => ⟨S3200000x1, .i32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000, .f32⟩
  | 114 => ⟨S3200000, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x32, .f32⟩
  | 124 => ⟨S3200000x1, .f32⟩
  | 125 => ⟨S3200000x32, .f32⟩
  | 126 => ⟨S3200000x32, .f32⟩
  | 127 => ⟨S_, .f32⟩
  | _ => ⟨S100000x128, .f32⟩

abbrev hbmTy0_1 (i : Nat) : BufTy := match i % 128 with
  | 0 => ⟨S100000x32, .f32⟩
  | 1 => ⟨S3200000x1, .i32⟩
  | 2 => ⟨S100000x32, .f32⟩
  | 3 => ⟨S100000, .f32⟩
  | 4 => ⟨S100000x1, .f32⟩
  | 5 => ⟨S100000x32, .f32⟩
  | 6 => ⟨S100000x32, .f32⟩
  | 7 => ⟨S100000x32, .f32⟩
  | 8 => ⟨S1x32, .f32⟩
  | 9 => ⟨S100000x32, .f32⟩
  | 10 => ⟨S100000x32, .f32⟩
  | 11 => ⟨S_, .f32⟩
  | 12 => ⟨S256x32, .f32⟩
  | 13 => ⟨S100000x1, .i32⟩
  | 14 => ⟨S256x32, .f32⟩
  | 15 => ⟨S256x16, .f32⟩
  | 16 => ⟨S1x16, .f32⟩
  | 17 => ⟨S256x16, .f32⟩
  | 18 => ⟨S256x16, .f32⟩
  | 19 => ⟨S_, .f32⟩
  | 20 => ⟨S256x16, .f32⟩
  | 21 => ⟨S256x16, .f32⟩
  | 22 => ⟨S256x1, .f32⟩
  | 23 => ⟨S1x1, .f32⟩
  | 24 => ⟨S256x1, .f32⟩
  | 25 => ⟨S256x1, .f32⟩
  | 26 => ⟨S256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_call3_cst : Ref sig .tc := ⟨.hbm, 147, rfl⟩
abbrev main_call3_v0 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S256x32_S100000x1_S100000x32_1_0_0_1_wf : ScatterDims.WF S256x32 S100000x1 S100000x32 [1] [0] [0] 1
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.NamedRun.lean ====
/-
  The idealized kernel program's run with its result named.

  The program is three kernel launches among stretches of host operations. Its run passes through thirteen boundaries;
  at each one every buffer of the TensorCore holds a known value, obtained from the launch memory by folding the host
  operations of the stretches and, across a launch, by replacing the launch's arrays with what its write-backs leave.
  The last boundary's contents are `W12`. Here the run is stated with the result buffer (the reshaped output of the
  third launch) at its value in `W12`, beside the argument arrays ending as launched: every weakly fair execution
  terminates without a fault in such a state.
-/
import proofs.«168740_j73469710565617_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at its value in
    the last boundary's contents and every argument array as launched. The final thread state holds every unscoped
    buffer at the last boundary's contents; the result buffer is one of them, read off like the arguments. -/
theorem run : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.NamedRun

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibMatmulAt.lean ====
/-
  A plain matrix product accumulated into the zero splat, read at an index, for operands of any float formats; and the zero
  offsets of a rank-2 rectangle as a constant function.

  For a rank-2 contraction [a, K] · [K, b] → [a, b] (the left operand's axis 1 against the right operand's axis 0, no batch
  axis), the accumulate-into-zero matrix product is, at the result index (p, q), the sum over k < K of
  lhs (p, k) · rhs (k, q). At the ideal instance a float of every format is an extended real, so the statement does not
  depend on the operands' formats: it is the f32 statement with the two formats left as parameters. The four coordinate
  facts about a given dimension record (hl0, hl1, hr0, hr1) are taken as hypotheses: for a literal record each is a
  computation.
-/
import proofs.«168740_j73469710565617_1_alg».proof.Proof.LibPlainDot

noncomputable section

namespace Cert.Lib.MatmulAt

open Idealize.ShloMosaic Idealize.ShloMosaic.ValueIdx

/-- The offset vector (0, 0) of a rank-2 rectangle is the constant function 0: the form in which the lemmas about a
    load or a store through a whole buffer at zero offsets take the offsets. -/
theorem hz : (![0, 0] : Fin 2 → Nat) = fun _ => 0 := funext fun a => by fin_cases a <;> rfl

/-- The matrix product of an [a, K] operand of format φ₁ with a [K, b] operand of format φ₂, accumulated into the zero
    splat, is at (p, q) the sum over k < K of lhs (p, k) · rhs (k, q) — for any dimension record D that contracts the
    left operand's axis 1 against the right operand's axis 0 (hr, hs: one contracted axis, of extent K; hl0 … hr1: at
    the result index i and the contraction index k the record names the operand indices (i 0, k) and (k, i 1)). -/
theorem matmul_zero_apply {a K b : Nat} {φ₁ φ₂ : FTy}
    (D : DotDims (⟨2, ![a, K]⟩ : Shape) (⟨2, ![K, b]⟩ : Shape) (⟨2, ![a, b]⟩ : Shape))
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (lhs : FVec Ideal (⟨2, ![a, K]⟩ : Shape) φ₁) (rhs : FVec Ideal (⟨2, ![K, b]⟩ : Shape) φ₂)
    (p : Fin a) (q : Fin b) :
    matmul D prec lhs rhs (constant (F := Ideal) (⟨2, ![a, b]⟩ : Shape) .f32 0x00000000#32) (ix2 p q)
      = ∑ k : Fin K, lhs (ix2 p k) * rhs (ix2 k q) :=
  (Ideal.matmul_constant_zero_apply D prec lhs rhs (ix2 p q)).trans
    (Cert.Lib.PlainDot.sum_contr D hr hs hl0 hl1 hr0 hr1 lhs rhs p q)

end Cert.Lib.MatmulAt

end
-- ==== Proof.ProjectFeatures.lean ====
/-
  The first projection: region 0 leaves in its output array the product of the [100000, 128] feature array with the [128, 64] weight matrix.

  The region runs over a grid of 10 points. At point t its body reads rows [10000·t, 10000·t + 10000) of the
  [100000, 128] array (the left operand's block t), reads the whole [128, 64] array (the right operand, the same block at
  every point), rounds both to a narrower float format (at the ideal instance a rounding is the identity on the extended
  reals), multiplies the [10000, 128] block by the [128, 64] matrix into a zero accumulator, and leaves the [10000, 64]
  product as block t of the output array. Entry (p, q) of that product is the sum over k < 128 of
  block(p, k) · right(k, q) = left(10000·t + p, k) · right(k, q), which is entry (10000·t + p, q) of the product of the two WHOLE
  arrays: a row of a matrix product depends only on that row of the left operand. The 10 blocks tile the 100000 rows
  (row r lies in block r / 10000), so the output array ends holding the whole product, which is what the host's
  dot_general of the two arrays is.

  Order of the file: the contraction's coordinate facts for the two dimension records (the block-sized one the body
  uses, the array-sized one the host uses); the body's product and the host's product read at an entry as the same
  sum; the windows' index maps over the grid; each input block read as rows of its array; the block a point writes
  back as the block of the whole product; the cover of the rows by the blocks; the array after the last point.
-/
import proofs.«168740_j73469710565617_1_alg».proof.Proof.Gen.KernelIdeal.Frame
import proofs.«168740_j73469710565617_1_alg».proof.Proof.Gen.ReferenceIdeal
import proofs.«168740_j73469710565617_1_alg».proof.Proof.LibMatmulAt
import Idealize.ShloMosaic.PureOps.Ideal
import Idealize.ShloMosaic.Lib.ValueIdx
import Idealize.ShloMosaic.Lib.Pipeline.Value

set_option maxRecDepth 16384
noncomputable section
namespace Cert.KernelIdeal.RegionValue
open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The block-sized contraction: which operand entries a result entry and a contraction index name

The record contracts the left operand's axis 1 against the right operand's axis 0 and has no batch axis: at the result
index i and the contraction index k the left operand is read at (i 0, k) and the right operand at (k, i 1). -/

theorem features_block_lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem features_block_lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem features_block_rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem features_block_rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body leaves in the output block, at (p, q): the body's one store writes the whole block, its two loads read
    the whole input blocks, the roundings are the identity, and the product accumulated into zero is the sum over
    k < 128 of block(p, k) · right(k, q). -/
theorem features_block_product_apply (x0 : Vec Ideal S10000x128 .f32) (x1 : Vec Ideal S128x64 .f32) (p : Fin 10000) (q : Fin 64) :
    out0_2 (F := Ideal) x0 x1 (ix2 p q) = ∑ k : Fin 128, x0 (ix2 p k) * x1 (ix2 k q) := by
  unfold out0_2
  rw [View.canon_unit_zero Cert.Lib.MatmulAt.hz]
  simp only [View.ld_unit_zero (S := S10000x128) Cert.Lib.MatmulAt.hz, View.ld_unit_zero (S := S128x64) Cert.Lib.MatmulAt.hz]
  unfold k0_pay1
  exact Cert.Lib.MatmulAt.matmul_zero_apply dot_S10000x128_S128x64_S10000x64_1_0_0_1_n_n rfl rfl
    features_block_lhs_row features_block_lhs_col features_block_rhs_row features_block_rhs_col none _ _ p q

/-! ## The array-sized contraction: the same facts for the host's record -/

theorem features_array_lhs_row (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem features_array_lhs_col (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem features_array_rhs_row (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem features_array_rhs_col (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The host's product of the two whole arrays, at (r, q): the sum over k < 128 of left(r, k) · right(k, q). -/
theorem features_array_product_apply (X : FVec Ideal S100000x128 .f32) (W : FVec Ideal S128x64 .f32) (r : Fin 100000) (q : Fin 64) :
    Host.dotGeneral (F := Ideal) (φ₁ := .f32) (φ₂ := .f32) Cert.ReferenceIdeal.dot_S100000x128_S128x64_S100000x64_1_0_0_1_n_n none X W (ix2 r q)
      = ∑ k : Fin 128, X (ix2 r k) * W (ix2 k q) :=
  Cert.Lib.PlainDot.dotGeneral_apply Cert.ReferenceIdeal.dot_S100000x128_S128x64_S100000x64_1_0_0_1_n_n rfl rfl
    features_array_lhs_row features_array_lhs_col features_array_rhs_row features_array_rhs_col none X W r q

/-- A row of a product depends only on that row of the left operand: if row p of the block x0 is row r of the array X,
    and column q of x1 is column q of W, the block product at (p, q) is the array product at (r, q) — the two sums agree
    term by term. -/
theorem features_block_entry_eq (x0 : Vec Ideal S10000x128 .f32) (x1 : Vec Ideal S128x64 .f32) (X : FVec Ideal S100000x128 .f32) (W : FVec Ideal S128x64 .f32)
    (p : Fin 10000) (q : Fin 64) (r : Fin 100000)
    (h0 : ∀ k : Fin 128, x0 (ix2 p k) = X (ix2 r k)) (h1 : ∀ k : Fin 128, x1 (ix2 k q) = W (ix2 k q)) :
    out0_2 (F := Ideal) x0 x1 (ix2 p q)
      = Host.dotGeneral (F := Ideal) (φ₁ := .f32) (φ₂ := .f32) Cert.ReferenceIdeal.dot_S100000x128_S128x64_S100000x64_1_0_0_1_n_n none X W (ix2 r q) := by
  rw [features_block_product_apply, features_array_product_apply]
  exact Finset.sum_congr rfl fun k _ => by rw [h0 k, h1 k]

/-! ## The windows' index maps over the grid, and the blocks as parts of their arrays -/

/-- At point t the left operand's window and the output's window are at block (t, 0), the right operand's at block
    (0, 0): the three index maps evaluated at each of the 10 points. -/
theorem features_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array at (10000·t + p, k): an element of a block sits in the
    array, on each axis, at the block index times the block's extent plus its own coordinate. -/
theorem features_rows_block_apply (c : Dev nD) (t : Fin cfg0.N) (p : Fin 10000) (k : Fin 128) (r : Fin 100000) (hr : r.val = 10000 * t.val + p.val) :
    (iblk0 V c 0 t : Vec Ideal S10000x128 .f32) (ix2 p k) = (V c main_arg0 : FVec Ideal S100000x128 .f32) (ix2 r k) := by
  obtain ⟨e0, e1, -⟩ := features_index_maps t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The right operand's block at every point is the whole array: its block index is (0, 0) and its extent the array's. -/
theorem features_weights_block_apply (c : Dev nD) (t : Fin cfg0.N) (k : Fin 128) (q : Fin 64) :
    (iblk0 V c 1 t : Vec Ideal S128x64 .f32) (ix2 k q) = (V c main_arg4 : FVec Ideal S128x64 .f32) (ix2 k q) := by
  obtain ⟨-, -, e0, e1, -⟩ := features_index_maps t
  unfold iblk0
  rw [View.read_apply]
  show V c main_arg4 _ = V c main_arg4 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The whole product of the two arrays as the region finds them: what the output array is to end holding. -/
abbrev features_product (c : Dev nD) : FVec Ideal S100000x64 .f32 :=
  Host.dotGeneral (F := Ideal) (φ₁ := .f32) (φ₂ := .f32) Cert.ReferenceIdeal.dot_S100000x128_S128x64_S100000x64_1_0_0_1_n_n none (V c main_arg0 : FVec Ideal S100000x128 .f32) (V c main_arg4 : FVec Ideal S128x64 .f32)

/-- Entry (p, q) of the output's block at point t is entry (10000·t + p, q) of the output array. -/
theorem features_out_block_emb (t : Fin cfg0.N) (p : Fin 10000) (q : Fin 64) (r : Fin 100000) (hr : r.val = 10000 * t.val + p.val) :
    (((cfg0.win 2).blk t).view.emb (ix2 p q) : S100000x64.Idx) = ix2 r q := by
  obtain ⟨-, -, -, -, e0, e1⟩ := features_index_maps t
  funext a
  apply Fin.ext
  match a with
  | ⟨0, _⟩ => show win0_2.index t (0 : Fin 2) * 10000 + 1 * p.val = r.val; rw [e0, hr]; omega
  | ⟨1, _⟩ => show win0_2.index t (1 : Fin 2) * 64 + 1 * q.val = q.val; rw [e1]; omega

/-! ## From the blocks to the array -/

/-- What point t writes back is block t of the whole product: at (p, q) the body's product of the two input blocks is
    the whole product at (10000·t + p, q), row p of the left block being row 10000·t + p of the left array and the right
    block being the right array. -/
theorem features_flushed_rows (c : Dev nD) (t : Fin cfg0.N) :
    (dat0 (F := Ideal) V c).flushed 2 t = ((cfg0.win 2).blk t).view.read (Elt Ideal) (features_product V c) := by
  show (cfg0.win 2).cut (grid0.coords t) ((dat0 V c).after 2 t) = _
  rw [after0_2]
  funext j
  obtain ⟨p, q, rfl⟩ : ∃ (p : Fin 10000) (q : Fin 64), j = ix2 p q := ⟨j 0, j 1, eq_ix2 j⟩
  have hp : p.val < 10000 := p.isLt
  have ht : t.val < 10 := by have h := t.isLt; have hN : cfg0.N = 10 := N_0; omega
  show out0_2 (iblk0 V c 0 t) (iblk0 V c 1 t) (ix2 p q) = features_product V c (((cfg0.win 2).blk t).view.emb (ix2 p q))
  rw [features_out_block_emb t p q ⟨10000 * t.val + p.val, by omega⟩ rfl]
  exact features_block_entry_eq _ _ _ _ p q ⟨10000 * t.val + p.val, by omega⟩
    (fun k => features_rows_block_apply V c t p k _ rfl) (fun k => features_weights_block_apply V c t k q)

/-- An index of the output array is in point t's block iff each coordinate is in the block's range on its axis. -/
theorem features_mem_out_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- The blocks tile the rows: the entry (r, q) is in the block of point r / 10000, since
    10000·(r / 10000) ≤ r < 10000·(r / 10000) + 10000 and r < 100000 puts r / 10000 below 10; every point writes its block back. -/
theorem features_rows_covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e0, e1⟩ := features_index_maps t
  refine ⟨t, flush0_2 t, ?_⟩
  rw [features_mem_out_block]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- The output array after the last point is the host's product of the two input arrays as the region finds them: every
    point's written block is that block of the product, and the blocks cover the array. -/
theorem features_projected (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none (V c main_arg0 : FVec Ideal S100000x128 .f32) (V c main_arg4 : FVec Ideal S128x64 .f32) :=
  (dat0 V c).arrAt_eq_of_cover 2 (features_product V c) (fun t _ => features_flushed_rows V c t) features_rows_covered

end Cert.KernelIdeal.RegionValue
end
-- ==== Proof.ProjectHidden.lean ====
/-
  The second projection: region 1 leaves in its output array the product of the [100000, 64] hidden array with the [64, 32] weight matrix.

  The region runs over a grid of 10 points. At point t its body reads rows [10000·t, 10000·t + 10000) of the
  [100000, 64] array (the left operand's block t), reads the whole [64, 32] array (the right operand, the same block at
  every point), reshapes the left block to its own shape (the identity), rounds both to a narrower float format (at the ideal
  instance a rounding is the identity on the extended reals), multiplies the [10000, 64] block by the [64, 32] matrix into a zero accumulator, and leaves the [10000, 32]
  product as block t of the output array. Entry (p, q) of that product is the sum over k < 64 of
  block(p, k) · right(k, q) = left(10000·t + p, k) · right(k, q), which is entry (10000·t + p, q) of the product of the two WHOLE
  arrays: a row of a matrix product depends only on that row of the left operand. The 10 blocks tile the 100000 rows
  (row r lies in block r / 10000), so the output array ends holding the whole product, which is what the host's
  dot_general of the two arrays is.

  Order of the file: the contraction's coordinate facts for the two dimension records (the block-sized one the body
  uses, the array-sized one the host uses); the body's product and the host's product read at an entry as the same
  sum; the windows' index maps over the grid; each input block read as rows of its array; the block a point writes
  back as the block of the whole product; the cover of the rows by the blocks; the array after the last point.
-/
import proofs.«168740_j73469710565617_1_alg».proof.Proof.Gen.KernelIdeal.Frame
import proofs.«168740_j73469710565617_1_alg».proof.Proof.Gen.ReferenceIdeal
import proofs.«168740_j73469710565617_1_alg».proof.Proof.LibMatmulAt
import Idealize.ShloMosaic.PureOps.Ideal
import Idealize.ShloMosaic.Lib.ValueIdx
import Idealize.ShloMosaic.Lib.Pipeline.Value

set_option maxRecDepth 16384
noncomputable section
namespace Cert.KernelIdeal.RegionValue
open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The block-sized contraction: which operand entries a result entry and a contraction index name

The record contracts the left operand's axis 1 against the right operand's axis 0 and has no batch axis: at the result
index i and the contraction index k the left operand is read at (i 0, k) and the right operand at (k, i 1). -/

theorem hidden_block_lhs_row (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem hidden_block_lhs_col (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem hidden_block_rhs_row (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem hidden_block_rhs_col (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- What the body leaves in the output block, at (p, q): the body's one store writes the whole block, its two loads read
    the whole input blocks, the left block's reshape to its own shape and the roundings are the identity, and the product accumulated into zero is the sum over
    k < 64 of block(p, k) · right(k, q). -/
theorem hidden_block_product_apply (x0 : Vec Ideal S10000x64 .f32) (x1 : Vec Ideal S64x32 .f32) (p : Fin 10000) (q : Fin 32) :
    out1_2 (F := Ideal) x0 x1 (ix2 p q) = ∑ k : Fin 64, x0 (ix2 p k) * x1 (ix2 k q) := by
  unfold out1_2
  rw [View.canon_unit_zero Cert.Lib.MatmulAt.hz]
  simp only [View.ld_unit_zero (S := S10000x64) Cert.Lib.MatmulAt.hz, View.ld_unit_zero (S := S64x32) Cert.Lib.MatmulAt.hz]
  unfold k1_pay1
  simp only [shapeCast_self]
  exact Cert.Lib.MatmulAt.matmul_zero_apply dot_S10000x64_S64x32_S10000x32_1_0_0_1_n_n rfl rfl
    hidden_block_lhs_row hidden_block_lhs_col hidden_block_rhs_row hidden_block_rhs_col none _ _ p q

/-! ## The array-sized contraction: the same facts for the host's record -/

theorem hidden_array_lhs_row (i : S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin S100000x64.rank) ∈ Cert.ReferenceIdeal.dot_S100000x64_S64x32_S100000x32_1_0_0_1_n_n.lhsBatch by decide), dif_pos (show (0 : Fin S100000x64.rank) ∈ Cert.ReferenceIdeal.dot_S100000x64_S64x32_S100000x32_1_0_0_1_n_n.lhsNonContracting by decide)]
  rfl
theorem hidden_array_lhs_col (i : S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
theorem hidden_array_rhs_row (i : S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
theorem hidden_array_rhs_col (i : S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin S64x32.rank) ∈ Cert.ReferenceIdeal.dot_S100000x64_S64x32_S100000x32_1_0_0_1_n_n.rhsBatch by decide), dif_pos (show (1 : Fin S64x32.rank) ∈ Cert.ReferenceIdeal.dot_S100000x64_S64x32_S100000x32_1_0_0_1_n_n.rhsNonContracting by decide)]
  rfl

/-- The host's product of the two whole arrays, at (r, q): the sum over k < 64 of left(r, k) · right(k, q). -/
theorem hidden_array_product_apply (X : FVec Ideal S100000x64 .f32) (W : FVec Ideal S64x32 .f32) (r : Fin 100000) (q : Fin 32) :
    Host.dotGeneral (F := Ideal) (φ₁ := .f32) (φ₂ := .f32) Cert.ReferenceIdeal.dot_S100000x64_S64x32_S100000x32_1_0_0_1_n_n none X W (ix2 r q)
      = ∑ k : Fin 64, X (ix2 r k) * W (ix2 k q) :=
  Cert.Lib.PlainDot.dotGeneral_apply Cert.ReferenceIdeal.dot_S100000x64_S64x32_S100000x32_1_0_0_1_n_n rfl rfl
    hidden_array_lhs_row hidden_array_lhs_col hidden_array_rhs_row hidden_array_rhs_col none X W r q

/-- A row of a product depends only on that row of the left operand: if row p of the block x0 is row r of the array X,
    and column q of x1 is column q of W, the block product at (p, q) is the array product at (r, q) — the two sums agree
    term by term. -/
theorem hidden_block_entry_eq (x0 : Vec Ideal S10000x64 .f32) (x1 : Vec Ideal S64x32 .f32) (X : FVec Ideal S100000x64 .f32) (W : FVec Ideal S64x32 .f32)
    (p : Fin 10000) (q : Fin 32) (r : Fin 100000)
    (h0 : ∀ k : Fin 64, x0 (ix2 p k) = X (ix2 r k)) (h1 : ∀ k : Fin 64, x1 (ix2 k q) = W (ix2 k q)) :
    out1_2 (F := Ideal) x0 x1 (ix2 p q)
      = Host.dotGeneral (F := Ideal) (φ₁ := .f32) (φ₂ := .f32) Cert.ReferenceIdeal.dot_S100000x64_S64x32_S100000x32_1_0_0_1_n_n none X W (ix2 r q) := by
  rw [hidden_block_product_apply, hidden_array_product_apply]
  exact Finset.sum_congr rfl fun k _ => by rw [h0 k, h1 k]

/-! ## The windows' index maps over the grid, and the blocks as parts of their arrays -/

/-- At point t the left operand's window and the output's window are at block (t, 0), the right operand's at block
    (0, 0): the three index maps evaluated at each of the 10 points. -/
theorem hidden_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at (p, k), is the array at (10000·t + p, k): an element of a block sits in the
    array, on each axis, at the block index times the block's extent plus its own coordinate. -/
theorem hidden_rows_block_apply (c : Dev nD) (t : Fin cfg1.N) (p : Fin 10000) (k : Fin 64) (r : Fin 100000) (hr : r.val = 10000 * t.val + p.val) :
    (iblk1 V c 0 t : Vec Ideal S10000x64 .f32) (ix2 p k) = (V c main_v51 : FVec Ideal S100000x64 .f32) (ix2 r k) := by
  obtain ⟨e0, e1, -⟩ := hidden_index_maps t
  unfold iblk1
  rw [View.read_apply]
  show V c main_v51 _ = V c main_v51 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The right operand's block at every point is the whole array: its block index is (0, 0) and its extent the array's. -/
theorem hidden_weights_block_apply (c : Dev nD) (t : Fin cfg1.N) (k : Fin 64) (q : Fin 32) :
    (iblk1 V c 1 t : Vec Ideal S64x32 .f32) (ix2 k q) = (V c main_arg6 : FVec Ideal S64x32 .f32) (ix2 k q) := by
  obtain ⟨-, -, e0, e1, -⟩ := hidden_index_maps t
  unfold iblk1
  rw [View.read_apply]
  show V c main_arg6 _ = V c main_arg6 _
  congr 1
  funext a
  apply Fin.ext
  match a with
  | ⟨0, _⟩ => show win1_1.index t (0 : Fin 2) * 64 + 1 * k.val = k.val; rw [e0]; omega
  | ⟨1, _⟩ => show win1_1.index t (1 : Fin 2) * 32 + 1 * q.val = q.val; rw [e1]; omega

/-- The whole product of the two arrays as the region finds them: what the output array is to end holding. -/
abbrev hidden_product (c : Dev nD) : FVec Ideal S100000x32 .f32 :=
  Host.dotGeneral (F := Ideal) (φ₁ := .f32) (φ₂ := .f32) Cert.ReferenceIdeal.dot_S100000x64_S64x32_S100000x32_1_0_0_1_n_n none (V c main_v51 : FVec Ideal S100000x64 .f32) (V c main_arg6 : FVec Ideal S64x32 .f32)

/-- Entry (p, q) of the output's block at point t is entry (10000·t + p, q) of the output array. -/
theorem hidden_out_block_emb (t : Fin cfg1.N) (p : Fin 10000) (q : Fin 32) (r : Fin 100000) (hr : r.val = 10000 * t.val + p.val) :
    (((cfg1.win 2).blk t).view.emb (ix2 p q) : S100000x32.Idx) = ix2 r q := by
  obtain ⟨-, -, -, -, e0, e1⟩ := hidden_index_maps t
  funext a
  apply Fin.ext
  match a with
  | ⟨0, _⟩ => show win1_2.index t (0 : Fin 2) * 10000 + 1 * p.val = r.val; rw [e0, hr]; omega
  | ⟨1, _⟩ => show win1_2.index t (1 : Fin 2) * 32 + 1 * q.val = q.val; rw [e1]; omega

/-! ## From the blocks to the array -/

/-- What point t writes back is block t of the whole product: at (p, q) the body's product of the two input blocks is
    the whole product at (10000·t + p, q), row p of the left block being row 10000·t + p of the left array and the right
    block being the right array. -/
theorem hidden_flushed_rows (c : Dev nD) (t : Fin cfg1.N) :
    (dat1 (F := Ideal) V c).flushed 2 t = ((cfg1.win 2).blk t).view.read (Elt Ideal) (hidden_product V c) := by
  show (cfg1.win 2).cut (grid1.coords t) ((dat1 V c).after 2 t) = _
  rw [after1_2]
  funext j
  obtain ⟨p, q, rfl⟩ : ∃ (p : Fin 10000) (q : Fin 32), j = ix2 p q := ⟨j 0, j 1, eq_ix2 j⟩
  have hp : p.val < 10000 := p.isLt
  have ht : t.val < 10 := by have h := t.isLt; have hN : cfg1.N = 10 := N_1; omega
  show out1_2 (iblk1 V c 0 t) (iblk1 V c 1 t) (ix2 p q) = hidden_product V c (((cfg1.win 2).blk t).view.emb (ix2 p q))
  rw [hidden_out_block_emb t p q ⟨10000 * t.val + p.val, by omega⟩ rfl]
  exact hidden_block_entry_eq _ _ _ _ p q ⟨10000 * t.val + p.val, by omega⟩
    (fun k => hidden_rows_block_apply V c t p k _ rfl) (fun k => hidden_weights_block_apply V c t k q)

/-- An index of the output array is in point t's block iff each coordinate is in the block's range on its axis. -/
theorem hidden_mem_out_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v52).slice (win1_2.rect t)).set ↔ _
  rw [View.set_slice_whole, Rect.mem_set_unit]
  exact Iff.rfl

/-- The blocks tile the rows: the entry (r, q) is in the block of point r / 10000, since
    10000·(r / 10000) ≤ r < 10000·(r / 10000) + 10000 and r < 100000 puts r / 10000 below 10; every point writes its block back. -/
theorem hidden_rows_covered (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e0, e1⟩ := hidden_index_maps t
  refine ⟨t, flush1_2 t, ?_⟩
  rw [hidden_mem_out_block]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 32 ≤ (i 1).val ∧ (i 1).val < win1_2.index t (1 : Fin 2) * 32 + 32; rw [e1]; omega

/-- The output array after the last point is the host's product of the two input arrays as the region finds them: every
    point's written block is that block of the product, and the blocks cover the array. -/
theorem hidden_projected (c : Dev nD) :
    (dat1 (F := Ideal) V c).arrAt 2 cfg1.N
      = Host.dotGeneral (F := Ideal) (φ₁ := .f32) (φ₂ := .f32) Cert.ReferenceIdeal.dot_S100000x64_S64x32_S100000x32_1_0_0_1_n_n none (V c main_v51 : FVec Ideal S100000x64 .f32) (V c main_arg6 : FVec Ideal S64x32 .f32) :=
  (dat1 V c).arrAt_eq_of_cover 2 (hidden_product V c) (fun t _ => hidden_flushed_rows V c t) hidden_rows_covered

end Cert.KernelIdeal.RegionValue
end
-- ==== Proof.PooledHead.lean ====
/-
  The fused two-layer head over the pooled matrix.

  The region has one grid point and every window's block is its whole array, so the array its output window ends
  holding is the body's result of the five whole input arrays: the pooled matrix u [256, 32], the first layer's
  weights W₁ [32, 16] and bias row [1, 16], the second layer's weights W₂ [16, 1] and bias cell [1, 1]. The bias row
  is the vector b₁ [16] reshaped and the bias cell the vector b₂ [1] reshaped. At the row r the body's result is

      ∑ j < 16, max (∑ k < 32, u (r, k) · W₁ (k, j) + b₁ j) 0 · W₂ (j, 0) + b₂ 0,

  and the host's chain dot_general, bias broadcast, add, maximum against zero, dot_general, bias broadcast, add is the
  same tree of +, ·, max and ∑ of the same entries. The two are joined one operation at a time: each matrix product
  into a zero accumulator, with its operands narrowed (the identity on extended reals), is the host's dot_general of
  the unnarrowed operands, both being the sum over the contracted axis; the row broadcast of the reshaped bias and
  the host's two broadcasts of the bias both read the bias entry of the lane; the splat of the zero word and the
  broadcast of the zero constant both read the zero word's value everywhere.
-/
import proofs.«168740_j73469710565617_1_alg».proof.Proof.Gen.KernelIdeal.Frame
import proofs.«168740_j73469710565617_1_alg».proof.Proof.Gen.ReferenceIdeal
import proofs.«168740_j73469710565617_1_alg».proof.Proof.LibMatmulAt
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384
noncomputable section
namespace Cert.KernelIdeal.RegionValue
open Cert.KernelIdeal Cert.KernelIdeal.Gen Idealize.ShloMosaic Idealize.ShloMosaic.TcCoe Idealize.SL.Sem
open Idealize.ShloMosaic.ValueIdx

namespace Head

/-! ## The body's result is its payload of the whole input buffers -/

/-- The body loads each input buffer whole and stores its result over the whole output buffer once, so what it
    leaves in the output buffer is the payload of the five input buffers' contents. -/
theorem head_block_eq (x0 : Vec Ideal S256x32 .f32) (x1 : Vec Ideal S32x16 .f32) (x2 : Vec Ideal S1x16 .f32)
    (x3 : Vec Ideal S16x1 .f32) (x4 : Vec Ideal S1x1 .f32) :
    out2_5 (F := Ideal) x0 x1 x2 x3 x4 = k2_pay1 x0 x1 x2 x3 x4 := by
  unfold out2_5
  rw [View.canon_unit_zero Cert.Lib.MatmulAt.hz]
  rw [View.ld_unit_zero Cert.Lib.MatmulAt.hz, View.ld_unit_zero Cert.Lib.MatmulAt.hz, View.ld_unit_zero Cert.Lib.MatmulAt.hz,
    View.ld_unit_zero Cert.Lib.MatmulAt.hz, View.ld_unit_zero Cert.Lib.MatmulAt.hz]

/-! ## The payload's operations, one at a time, against the host's -/

/-- The first layer's product: the pooled matrix [256, 32] by the weights [32, 16], both narrowed, accumulated into
    zero, is the host's dot_general of the two: at (p, q) both are ∑ k < 32, u (p, k) · W₁ (k, q). -/
theorem first_product (x0 : FVec Ideal S256x32 .f32) (x1 : FVec Ideal S32x16 .f32) :
    matmul dot_S256x32_S32x16_S256x16_1_0_0_1_n_n none
        (truncf .bf16 (shapeCast S256x32 x0 shapeCasts_S256x32_S256x32) bitsLt_bf16_f32) (truncf .bf16 x1 bitsLt_bf16_f32)
        (constant (F := Ideal) S256x16 .f32 0x00000000#32)
      = Host.dotGeneral (F := Ideal) (φ₁ := .f32) (φ₂ := .f32) Cert.ReferenceIdeal.dot_S256x32_S32x16_S256x16_1_0_0_1_n_n none x0 x1 := by
  funext j
  obtain ⟨p, q, rfl⟩ : ∃ (p : Fin 256) (q : Fin 16), j = ix2 p q := ⟨j 0, j 1, eq_ix2 j⟩
  rw [shapeCast_self]
  refine (Cert.Lib.MatmulAt.matmul_zero_apply (a := 256) (K := 32) (b := 16) dot_S256x32_S32x16_S256x16_1_0_0_1_n_n rfl rfl
    (fun _ _ => rfl) (fun _ _ => rfl) (fun _ _ => rfl) (fun _ _ => rfl) none _ _ p q).trans ?_
  refine Eq.symm ((Cert.Lib.PlainDot.dotGeneral_apply (a := 256) (K := 32) (b := 16)
    Cert.ReferenceIdeal.dot_S256x32_S32x16_S256x16_1_0_0_1_n_n rfl rfl
    (fun _ _ => rfl) (fun _ _ => rfl) (fun _ _ => rfl) (fun _ _ => rfl) none x0 x1 p q).trans ?_)
  rfl

/-- The first layer's bias: the row [1, 16] that is b₁ reshaped, broadcast down the 256 rows, and the host's two
    broadcasts [16] → [1, 16] → [256, 16] both hold b₁ q at (p, q). -/
theorem bias_row (bl1 : FVec Ideal S16 .f32) :
    broadcastTo S256x16 (shapeCast S1x16 (shapeCast S1x16 bl1 shapeCasts_S16_S1x16) shapeCasts_S1x16_S1x16) broadcasts_S1x16_S256x16
      = broadcastInDim Cert.ReferenceIdeal.S256x16 ![0, 1] Cert.ReferenceIdeal.Facts₀.bcast_S1x16_S256x16_0_1
          (broadcastInDim Cert.ReferenceIdeal.S1x16 ![1] Cert.ReferenceIdeal.Facts₀.bcast_S16_S1x16_1 bl1) := by
  funext j
  obtain ⟨p, q, rfl⟩ : ∃ (p : Fin 256) (q : Fin 16), j = ix2 p q := ⟨j 0, j 1, eq_ix2 j⟩
  rw [shapeCast_self]
  refine (broadcastTo_1b_ab_apply (a := 256) (b := 16) _ _ p q).trans ?_
  refine (shapeCast_a_1a_apply (a := 16) bl1 _ (0 : Fin 1) q).trans ?_
  refine Eq.symm ((broadcastInDim_apply _ _ _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])).trans ?_)
  exact broadcastInDim_apply _ _ bl1 (ix2 (0 : Fin 1) q) (ix1 q) (fun a => match a with
    | ⟨0, _⟩ => by show q.val = if (16 : Nat) = 1 then 0 else q.val; rw [if_neg (by decide)])

/-- The floor of the rectifier: the splat of the zero word and the host's broadcast of the zero constant both hold
    the zero word's value at every index. -/
theorem zero_floor :
    broadcast S256x16 (Scalar.ofBits (F := Ideal) .f32 0x00000000#32)
      = broadcastInDim Cert.ReferenceIdeal.S256x16 ![] Cert.ReferenceIdeal.Facts₀.bcast_S_S256x16
          (constant (F := Ideal) Cert.ReferenceIdeal.S_ .f32 0x00000000#32) := by
  funext j
  refine Eq.symm ((broadcastInDim_apply _ _ _ j ix0 (fun a => a.elim0)).trans ?_)
  rfl

/-- The second layer's product: the hidden matrix [256, 16] by the weights [16, 1], both narrowed, accumulated into
    zero, is the host's dot_general of the two: at (p, 0) both are ∑ j < 16, h (p, j) · W₂ (j, 0). -/
theorem second_product (h : FVec Ideal S256x16 .f32) (x3 : FVec Ideal S16x1 .f32) :
    matmul dot_S256x16_S16x1_S256x1_1_0_0_1_n_n none (truncf .bf16 h bitsLt_bf16_f32) (truncf .bf16 x3 bitsLt_bf16_f32)
        (constant (F := Ideal) S256x1 .f32 0x00000000#32)
      = Host.dotGeneral (F := Ideal) (φ₁ := .f32) (φ₂ := .f32) Cert.ReferenceIdeal.dot_S256x16_S16x1_S256x1_1_0_0_1_n_n none h x3 := by
  funext j
  obtain ⟨p, q, rfl⟩ : ∃ (p : Fin 256) (q : Fin 1), j = ix2 p q := ⟨j 0, j 1, eq_ix2 j⟩
  refine (Cert.Lib.MatmulAt.matmul_zero_apply (a := 256) (K := 16) (b := 1) dot_S256x16_S16x1_S256x1_1_0_0_1_n_n rfl rfl
    (fun _ _ => rfl) (fun _ _ => rfl) (fun _ _ => rfl) (fun _ _ => rfl) none _ _ p q).trans ?_
  refine Eq.symm ((Cert.Lib.PlainDot.dotGeneral_apply (a := 256) (K := 16) (b := 1)
    Cert.ReferenceIdeal.dot_S256x16_S16x1_S256x1_1_0_0_1_n_n rfl rfl
    (fun _ _ => rfl) (fun _ _ => rfl) (fun _ _ => rfl) (fun _ _ => rfl) none h x3 p q).trans ?_)
  rfl

/-- The second layer's bias: the cell [1, 1] that is b₂ reshaped, broadcast down the 256 rows, and the host's two
    broadcasts [1] → [1, 1] → [256, 1] both hold b₂ 0 at (p, 0). -/
theorem bias_cell (bl2 : FVec Ideal S1 .f32) :
    broadcastTo S256x1 (shapeCast S1x1 (shapeCast S1x1 bl2 shapeCasts_S1_S1x1) shapeCasts_S1x1_S1x1) broadcasts_S1x1_S256x1
      = broadcastInDim Cert.ReferenceIdeal.S256x1 ![0, 1] Cert.ReferenceIdeal.Facts₀.bcast_S1x1_S256x1_0_1
          (broadcastInDim Cert.ReferenceIdeal.S1x1 ![1] Cert.ReferenceIdeal.Facts₀.bcast_S1_S1x1_1 bl2) := by
  funext j
  obtain ⟨p, q, rfl⟩ : ∃ (p : Fin 256) (q : Fin 1), j = ix2 p q := ⟨j 0, j 1, eq_ix2 j⟩
  rw [shapeCast_self]
  refine (broadcastTo_1b_ab_apply (a := 256) (b := 1) _ _ p q).trans ?_
  refine (shapeCast_a_1a_apply (a := 1) bl2 _ (0 : Fin 1) q).trans ?_
  refine Eq.symm ((broadcastInDim_apply _ _ _ (ix2 p q) (ix2 (0 : Fin 1) q) (fun a => match a with
    | ⟨0, _⟩ => by show 0 = if (1 : Nat) = 1 then 0 else p.val; rw [if_pos rfl]
    | ⟨1, _⟩ => by show q.val = if (1 : Nat) = 1 then 0 else q.val; rw [if_pos rfl]; omega)).trans ?_)
  exact broadcastInDim_apply _ _ bl2 (ix2 (0 : Fin 1) q) (ix1 q) (fun a => match a with
    | ⟨0, _⟩ => by show q.val = if (1 : Nat) = 1 then 0 else q.val; rw [if_pos rfl]; omega)

/-! ## The payload is the host's chain -/

/-- The host's chain of the head: the two layers with their biases and the rectifier between them, applied to the
    pooled matrix u, the weights W₁ and W₂ and the bias vectors b₁ and b₂. -/
abbrev hostHead (u : FVec Ideal S256x32 .f32) (w1 : FVec Ideal S32x16 .f32) (w2 : FVec Ideal S16x1 .f32)
    (bl1 : FVec Ideal S16 .f32) (bl2 : FVec Ideal S1 .f32) : FVec Ideal S256x1 .f32 :=
  addf (Host.dotGeneral (F := Ideal) (φ₁ := .f32) (φ₂ := .f32) Cert.ReferenceIdeal.dot_S256x16_S16x1_S256x1_1_0_0_1_n_n none
      (maximumf (addf (Host.dotGeneral (F := Ideal) (φ₁ := .f32) (φ₂ := .f32) Cert.ReferenceIdeal.dot_S256x32_S32x16_S256x16_1_0_0_1_n_n none u w1)
          (broadcastInDim Cert.ReferenceIdeal.S256x16 ![0, 1] Cert.ReferenceIdeal.Facts₀.bcast_S1x16_S256x16_0_1 (broadcastInDim Cert.ReferenceIdeal.S1x16 ![1] Cert.ReferenceIdeal.Facts₀.bcast_S16_S1x16_1 bl1)))
        (broadcastInDim Cert.ReferenceIdeal.S256x16 ![] Cert.ReferenceIdeal.Facts₀.bcast_S_S256x16 (constant (F := Ideal) Cert.ReferenceIdeal.S_ .f32 0x00000000#32)))
      w2)
    (broadcastInDim Cert.ReferenceIdeal.S256x1 ![0, 1] Cert.ReferenceIdeal.Facts₀.bcast_S1x1_S256x1_0_1 (broadcastInDim Cert.ReferenceIdeal.S1x1 ![1] Cert.ReferenceIdeal.Facts₀.bcast_S1_S1x1_1 bl2))

/-- The payload of the pooled matrix, the weights and the two reshaped biases is the host's chain of them: the
    payload's five non-pointwise operations rewritten by the five lemmas above, the pointwise ones (add, maximum)
    being the same on both sides. -/
theorem head_payload_eq (x0 : FVec Ideal S256x32 .f32) (x1 : FVec Ideal S32x16 .f32) (x3 : FVec Ideal S16x1 .f32)
    (bl1 : FVec Ideal S16 .f32) (bl2 : FVec Ideal S1 .f32) :
    k2_pay1 (F := Ideal) x0 x1 (shapeCast S1x16 bl1 shapeCasts_S16_S1x16) x3 (shapeCast S1x1 bl2 shapeCasts_S1_S1x1)
      = hostHead x0 x1 x3 bl1 bl2 := by
  unfold k2_pay1
  dsimp only
  rw [first_product, bias_row, zero_floor, second_product, bias_cell]

/-- What the body leaves in the output buffer, from five input buffers that hold the pooled matrix, the weights and
    the two reshaped biases. -/
theorem head_of_blocks (x0 y0 : Vec Ideal S256x32 .f32) (x1 y1 : Vec Ideal S32x16 .f32) (x2 : Vec Ideal S1x16 .f32)
    (x3 y3 : Vec Ideal S16x1 .f32) (x4 : Vec Ideal S1x1 .f32) (bl1 : FVec Ideal S16 .f32) (bl2 : FVec Ideal S1 .f32)
    (h0 : x0 = y0) (h1 : x1 = y1) (h2 : x2 = shapeCast S1x16 bl1 shapeCasts_S16_S1x16) (h3 : x3 = y3)
    (h4 : x4 = shapeCast S1x1 bl2 shapeCasts_S1_S1x1) :
    out2_5 (F := Ideal) x0 x1 x2 x3 x4 = hostHead y0 y1 y3 bl1 bl2 := by
  subst h0 h1 h2 h3 h4
  rw [head_block_eq]
  exact head_payload_eq x0 x1 x3 bl1 bl2

/-! ## From the one block to the array -/

variable (V : (c : Dev nD) → (b : Ref sig .tc) → Buf (Elt Ideal) ((c : Thread nD τ).loc b))

/-- Each window's block index is (0, 0) at every grid point, so on each axis the block starts at offset
    0 · (the block's extent) = 0. -/
theorem start_0 (t : Fin cfg2.N) : (fun a => win2_0.index t a * main_v101.ty.shape.size a) = fun _ => 0 := funext fun a => by fin_cases a <;> rfl
theorem start_1 (t : Fin cfg2.N) : (fun a => win2_1.index t a * main_arg8.ty.shape.size a) = fun _ => 0 := funext fun a => by fin_cases a <;> rfl
theorem start_2 (t : Fin cfg2.N) : (fun a => win2_2.index t a * main_v102.ty.shape.size a) = fun _ => 0 := funext fun a => by fin_cases a <;> rfl
theorem start_3 (t : Fin cfg2.N) : (fun a => win2_3.index t a * main_arg10.ty.shape.size a) = fun _ => 0 := funext fun a => by fin_cases a <;> rfl
theorem start_4 (t : Fin cfg2.N) : (fun a => win2_4.index t a * main_v103.ty.shape.size a) = fun _ => 0 := funext fun a => by fin_cases a <;> rfl
theorem start_5 (t : Fin cfg2.N) : (fun a => win2_5.index t a * main_v104.ty.shape.size a) = fun _ => 0 := funext fun a => by fin_cases a <;> rfl

/-- A block that starts at (0, 0) and has the array's extents reads the whole array: the pooled matrix, -/
theorem pooled_block (c : Dev nD) (t : Fin cfg2.N) : (iblk2 V c 0 t : Vec Ideal S256x32 .f32) = V c main_v101 := by
  unfold iblk2
  exact Memref.read_access_unit_zero (Elt Ideal) main_v101 (start_0 t) (fun a => by rw [congrFun (start_0 t) a]; simp) (V c main_v101)

/-- the first layer's weights, -/
theorem weights1_block (c : Dev nD) (t : Fin cfg2.N) : (iblk2 V c 1 t : Vec Ideal S32x16 .f32) = V c main_arg8 := by
  unfold iblk2
  exact Memref.read_access_unit_zero (Elt Ideal) main_arg8 (start_1 t) (fun a => by rw [congrFun (start_1 t) a]; simp) (V c main_arg8)

/-- the first layer's bias row, -/
theorem bias1_block (c : Dev nD) (t : Fin cfg2.N) : (iblk2 V c 2 t : Vec Ideal S1x16 .f32) = V c main_v102 := by
  unfold iblk2
  exact Memref.read_access_unit_zero (Elt Ideal) main_v102 (start_2 t) (fun a => by rw [congrFun (start_2 t) a]; simp) (V c main_v102)

/-- the second layer's weights, -/
theorem weights2_block (c : Dev nD) (t : Fin cfg2.N) : (iblk2 V c 3 t : Vec Ideal S16x1 .f32) = V c main_arg10 := by
  unfold iblk2
  exact Memref.read_access_unit_zero (Elt Ideal) main_arg10 (start_3 t) (fun a => by rw [congrFun (start_3 t) a]; simp) (V c main_arg10)

/-- the second layer's bias cell; -/
theorem bias2_block (c : Dev nD) (t : Fin cfg2.N) : (iblk2 V c 4 t : Vec Ideal S1x1 .f32) = V c main_v103 := by
  unfold iblk2
  exact Memref.read_access_unit_zero (Elt Ideal) main_v103 (start_4 t) (fun a => by rw [congrFun (start_4 t) a]; simp) (V c main_v103)

/-- and the output's block of any contents of the output array is those contents. -/
theorem result_block (t : Fin cfg2.N) (G : Vec Ideal S256x1 .f32) : ((cfg2.win 5).blk t).view.read (Elt Ideal) G = G :=
  Memref.read_access_unit_zero (Elt Ideal) main_v104 (start_5 t) (fun a => by rw [congrFun (start_5 t) a]; simp) G

/-- Every index of the output array is in the output's block at the grid's one point. -/
theorem result_covered (i : S256x1.Idx) : i ∈ ((cfg2.win 5).blk t2_0).view.set := by
  show i ∈ ((View.whole main_v104).slice (win2_5.rect t2_0)).set
  rw [View.set_slice_whole]
  exact View.mem_set_unit_zero (S := S256x1) (start_5 t2_0) _ i

end Head

variable (V : (c : Dev nD) → (b : Ref sig .tc) → Buf (Elt Ideal) ((c : Thread nD τ).loc b))

/-- The head. The output array ends holding the host's chain (two dot_generals, two bias broadcasts, the rectifier)
    of the pooled matrix and the head's weights, the two bias arrays being the reshapes of b₁ and b₂: the one grid
    point's write-back is the whole array, and what it writes is the body's result of the whole input arrays. -/
theorem pooled_head (c : Dev nD) (bl1 : FVec Ideal S16 .f32) (bl2 : FVec Ideal S1 .f32)
    (h102 : (V c main_v102 : FVec Ideal S1x16 .f32) = shapeCast S1x16 bl1 shapeCasts_S16_S1x16) (h103 : (V c main_v103 : FVec Ideal S1x1 .f32) = shapeCast S1x1 bl2 shapeCasts_S1_S1x1) :
    (dat2 (F := Ideal) V c).arrAt 5 cfg2.N
      = addf (Host.dotGeneral (F := Ideal) (φ₁ := .f32) (φ₂ := .f32) Cert.ReferenceIdeal.dot_S256x16_S16x1_S256x1_1_0_0_1_n_n none
          (maximumf (addf (Host.dotGeneral (F := Ideal) (φ₁ := .f32) (φ₂ := .f32) Cert.ReferenceIdeal.dot_S256x32_S32x16_S256x16_1_0_0_1_n_n none (V c main_v101 : FVec Ideal S256x32 .f32) (V c main_arg8 : FVec Ideal S32x16 .f32))
              (broadcastInDim Cert.ReferenceIdeal.S256x16 ![0, 1] Cert.ReferenceIdeal.Facts₀.bcast_S1x16_S256x16_0_1 (broadcastInDim Cert.ReferenceIdeal.S1x16 ![1] Cert.ReferenceIdeal.Facts₀.bcast_S16_S1x16_1 bl1)))
            (broadcastInDim Cert.ReferenceIdeal.S256x16 ![] Cert.ReferenceIdeal.Facts₀.bcast_S_S256x16 (constant (F := Ideal) Cert.ReferenceIdeal.S_ .f32 0x00000000#32)))
          (V c main_arg10 : FVec Ideal S16x1 .f32))
        (broadcastInDim Cert.ReferenceIdeal.S256x1 ![0, 1] Cert.ReferenceIdeal.Facts₀.bcast_S1x1_S256x1_0_1 (broadcastInDim Cert.ReferenceIdeal.S1x1 ![1] Cert.ReferenceIdeal.Facts₀.bcast_S1_S1x1_1 bl2)) := by
  refine (dat2 (F := Ideal) V c).arrAt_eq_of_cover 5 (Head.hostHead (V c main_v101) (V c main_arg8) (V c main_arg10) bl1 bl2)
    (fun t _ => ?_) (fun i => ⟨t2_0, flush2_5 t2_0, Head.result_covered i⟩)
  refine Eq.trans ?_ (Head.result_block t _).symm
  show (cfg2.win 5).cut (grid2.coords t) ((dat2 V c).after 5 t) = _
  rw [after2_5]
  exact Head.head_of_blocks _ _ _ _ _ _ _ _ bl1 bl2 (Head.pooled_block V c t) (Head.weights1_block V c t)
    ((Head.bias1_block V c t).trans h102) (Head.weights2_block V c t) ((Head.bias2_block V c t).trans h103)

end Cert.KernelIdeal.RegionValue
end
-- ==== Proof.ResultTerm.lean ====
/-
  The idealized kernel program's result is the reference's, as one term of the argument arrays.

  The kernel program and the reference apply the same host operations, in the same order, to the same arguments — the
  edge rows and columns cut out of the edge list, the degree sums scattered over the nodes, their inverse square roots
  gathered along the edges, the messages scattered back, the self-loop term, the bias, the rectifier, the pooling by
  graph — and differ only in three places: where the reference multiplies the node features by the first weight matrix,
  and the hidden features by the second, the kernel program launches a kernel that forms the same product ten thousand
  rows at a time; and where the reference applies the two-layer head to the pooled matrix by host operations, the
  kernel program launches one kernel that does both layers. So the kernel program's result buffer, read back from the
  last boundary of its run to the launch memory — each stretch of host operations folded into the operations' term of
  the buffers before it, each launch crossed by the fact that its output array is the reference's operation of its
  input arrays, every other buffer crossing a launch unchanged — is literally the term the reference's run ends with,
  of arguments that agree.

  The reading-back uses nothing about the float operations: it is done for any float instance, given what the three
  launches leave in their output arrays; only those three facts are about the extended reals.
-/
import proofs.«168740_j73469710565617_1_alg».proof.Proof.Gen.KernelIdeal.Frame
import proofs.«168740_j73469710565617_1_alg».proof.Proof.Gen.ReferenceIdeal.Run
import proofs.«168740_j73469710565617_1_alg».proof.Proof.ProjectFeatures
import proofs.«168740_j73469710565617_1_alg».proof.Proof.ProjectHidden
import proofs.«168740_j73469710565617_1_alg».proof.Proof.PooledHead
import Idealize.ShloMosaic.PureOps.Ideal
import Idealize.ShloMosaic.Lib.StableHlo.Run

set_option maxRecDepth 16384

noncomputable section

namespace Cert.KernelIdeal.ResultTerm

open Cert.KernelIdeal Cert.KernelIdeal.Gen
open Idealize.ShloMosaic Idealize.ShloMosaic.TcCoe Idealize.SL.Sem Idealize.ShloMosaic.StableHlo

section AnyFloats

variable {F : FTy → Type} [FloatOps F]
variable (m : (ℓ : Loc nD τ sig) → Buf (Elt F) ℓ) (ρ : Dev nD → PrngReg)

/-! The arrays a launch writes hold what its write-backs leave; every other buffer crosses the launch unchanged. -/
theorem W11_v104 (c : Dev nD) : W11 m ρ c (Proc.devRef .tc main_v104) = (dat2 (V10 m ρ) c).arrAt 5 cfg2.N := W11_arr m ρ c 5
theorem W7_v52 (c : Dev nD) : W7 m ρ c (no_index (Proc.devRef .tc main_v52)) = (dat1 (V6 m ρ) c).arrAt 2 cfg1.N := W7_arr m ρ c 2
theorem W2_v4 (c : Dev nD) : W2 m ρ c (no_index (Proc.devRef .tc main_v4)) = (dat0 (V1 m ρ) c).arrAt 2 cfg0.N := W2_arr m ρ c 2
theorem W7_main_v1 (c : Dev nD) : W7 m ρ c (no_index (Proc.devRef .tc main_v1)) = W6 m ρ c (Proc.devRef .tc main_v1) := W7_of_ne m ρ c main_v1 (by decide)
theorem W7_main_v3 (c : Dev nD) : W7 m ρ c (no_index (Proc.devRef .tc main_v3)) = W6 m ρ c (Proc.devRef .tc main_v3) := W7_of_ne m ρ c main_v3 (by decide)
theorem W7_main_arg2 (c : Dev nD) : W7 m ρ c (no_index (Proc.devRef .tc main_arg2)) = W6 m ρ c (Proc.devRef .tc main_arg2) := W7_of_ne m ρ c main_arg2 (by decide)
theorem W7_main_arg3 (c : Dev nD) : W7 m ρ c (no_index (Proc.devRef .tc main_arg3)) = W6 m ρ c (Proc.devRef .tc main_arg3) := W7_of_ne m ρ c main_arg3 (by decide)
theorem W7_main_arg7 (c : Dev nD) : W7 m ρ c (no_index (Proc.devRef .tc main_arg7)) = W6 m ρ c (Proc.devRef .tc main_arg7) := W7_of_ne m ρ c main_arg7 (by decide)
theorem W7_main_arg8 (c : Dev nD) : W7 m ρ c (no_index (Proc.devRef .tc main_arg8)) = W6 m ρ c (Proc.devRef .tc main_arg8) := W7_of_ne m ρ c main_arg8 (by decide)
theorem W7_main_arg9 (c : Dev nD) : W7 m ρ c (no_index (Proc.devRef .tc main_arg9)) = W6 m ρ c (Proc.devRef .tc main_arg9) := W7_of_ne m ρ c main_arg9 (by decide)
theorem W7_main_arg10 (c : Dev nD) : W7 m ρ c (no_index (Proc.devRef .tc main_arg10)) = W6 m ρ c (Proc.devRef .tc main_arg10) := W7_of_ne m ρ c main_arg10 (by decide)
theorem W7_main_arg11 (c : Dev nD) : W7 m ρ c (no_index (Proc.devRef .tc main_arg11)) = W6 m ρ c (Proc.devRef .tc main_arg11) := W7_of_ne m ρ c main_arg11 (by decide)
theorem W2_main_v1 (c : Dev nD) : W2 m ρ c (no_index (Proc.devRef .tc main_v1)) = W1 m ρ c (Proc.devRef .tc main_v1) := W2_of_ne m ρ c main_v1 (by decide)
theorem W2_main_v3 (c : Dev nD) : W2 m ρ c (no_index (Proc.devRef .tc main_v3)) = W1 m ρ c (Proc.devRef .tc main_v3) := W2_of_ne m ρ c main_v3 (by decide)
theorem W2_main_arg1 (c : Dev nD) : W2 m ρ c (no_index (Proc.devRef .tc main_arg1)) = W1 m ρ c (Proc.devRef .tc main_arg1) := W2_of_ne m ρ c main_arg1 (by decide)
theorem W2_main_arg2 (c : Dev nD) : W2 m ρ c (no_index (Proc.devRef .tc main_arg2)) = W1 m ρ c (Proc.devRef .tc main_arg2) := W2_of_ne m ρ c main_arg2 (by decide)
theorem W2_main_arg3 (c : Dev nD) : W2 m ρ c (no_index (Proc.devRef .tc main_arg3)) = W1 m ρ c (Proc.devRef .tc main_arg3) := W2_of_ne m ρ c main_arg3 (by decide)
theorem W2_main_arg5 (c : Dev nD) : W2 m ρ c (no_index (Proc.devRef .tc main_arg5)) = W1 m ρ c (Proc.devRef .tc main_arg5) := W2_of_ne m ρ c main_arg5 (by decide)
theorem W2_main_arg6 (c : Dev nD) : W2 m ρ c (no_index (Proc.devRef .tc main_arg6)) = W1 m ρ c (Proc.devRef .tc main_arg6) := W2_of_ne m ρ c main_arg6 (by decide)
theorem W2_main_arg7 (c : Dev nD) : W2 m ρ c (no_index (Proc.devRef .tc main_arg7)) = W1 m ρ c (Proc.devRef .tc main_arg7) := W2_of_ne m ρ c main_arg7 (by decide)
theorem W2_main_arg8 (c : Dev nD) : W2 m ρ c (no_index (Proc.devRef .tc main_arg8)) = W1 m ρ c (Proc.devRef .tc main_arg8) := W2_of_ne m ρ c main_arg8 (by decide)
theorem W2_main_arg9 (c : Dev nD) : W2 m ρ c (no_index (Proc.devRef .tc main_arg9)) = W1 m ρ c (Proc.devRef .tc main_arg9) := W2_of_ne m ρ c main_arg9 (by decide)
theorem W2_main_arg10 (c : Dev nD) : W2 m ρ c (no_index (Proc.devRef .tc main_arg10)) = W1 m ρ c (Proc.devRef .tc main_arg10) := W2_of_ne m ρ c main_arg10 (by decide)
theorem W2_main_arg11 (c : Dev nD) : W2 m ρ c (no_index (Proc.devRef .tc main_arg11)) = W1 m ρ c (Proc.devRef .tc main_arg11) := W2_of_ne m ρ c main_arg11 (by decide)

/-! The two bias rows the third launch takes are reshapes of argument vectors, which no launch writes. -/
theorem V10_v102 (c : Dev nD) : (V10 m ρ c main_v102 : FVec F S1x16 .f32) = shapeCast S1x16 (W7 m ρ c (Proc.devRef .tc main_arg9) : FVec F S16 .f32) shapeCasts_S16_S1x16 := by
  show StableHlo.after hostOps2_2 (StableHlo.after hostOps2_1 (StableHlo.after hostOps2 (W7 m ρ c))) (Proc.devRef .tc main_v102) = _
  after_results_simp
  rfl
theorem V10_v103 (c : Dev nD) : (V10 m ρ c main_v103 : FVec F S1x1 .f32) = shapeCast S1x1 (W7 m ρ c (Proc.devRef .tc main_arg11) : FVec F S1 .f32) shapeCasts_S1_S1x1 := by
  show StableHlo.after hostOps2_2 (StableHlo.after hostOps2_1 (StableHlo.after hostOps2 (W7 m ρ c))) (Proc.devRef .tc main_v103) = _
  after_results_simp
  rfl

-- what the three launches leave in their output arrays, as hypotheses: the only facts below that depend on the float instance
variable (H0 : ∀ (V : (c : Dev nD) → (b : Ref sig .tc) → Buf (Elt F) ((c : Thread nD τ).loc b)) (c : Dev nD),
    (dat0 (F := F) V c).arrAt 2 cfg0.N
      = Host.dotGeneral (F := F) (φ₁ := .f32) (φ₂ := .f32) Cert.ReferenceIdeal.dot_S100000x128_S128x64_S100000x64_1_0_0_1_n_n none (V c main_arg0 : FVec F S100000x128 .f32) (V c main_arg4 : FVec F S128x64 .f32))
variable (H1 : ∀ (V : (c : Dev nD) → (b : Ref sig .tc) → Buf (Elt F) ((c : Thread nD τ).loc b)) (c : Dev nD),
    (dat1 (F := F) V c).arrAt 2 cfg1.N
      = Host.dotGeneral (F := F) (φ₁ := .f32) (φ₂ := .f32) Cert.ReferenceIdeal.dot_S100000x64_S64x32_S100000x32_1_0_0_1_n_n none (V c main_v51 : FVec F S100000x64 .f32) (V c main_arg6 : FVec F S64x32 .f32))
variable (H2 : ∀ (V : (c : Dev nD) → (b : Ref sig .tc) → Buf (Elt F) ((c : Thread nD τ).loc b)) (c : Dev nD) (bl1 : FVec F S16 .f32) (bl2 : FVec F S1 .f32)
    (h102 : (V c main_v102 : FVec F S1x16 .f32) = shapeCast S1x16 bl1 shapeCasts_S16_S1x16) (h103 : (V c main_v103 : FVec F S1x1 .f32) = shapeCast S1x1 bl2 shapeCasts_S1_S1x1),
    (dat2 (F := F) V c).arrAt 5 cfg2.N
      = addf (Host.dotGeneral (F := F) (φ₁ := .f32) (φ₂ := .f32) Cert.ReferenceIdeal.dot_S256x16_S16x1_S256x1_1_0_0_1_n_n none
          (maximumf (addf (Host.dotGeneral (F := F) (φ₁ := .f32) (φ₂ := .f32) Cert.ReferenceIdeal.dot_S256x32_S32x16_S256x16_1_0_0_1_n_n none (V c main_v101 : FVec F S256x32 .f32) (V c main_arg8 : FVec F S32x16 .f32))
              (broadcastInDim Cert.ReferenceIdeal.S256x16 ![0, 1] Cert.ReferenceIdeal.Facts₀.bcast_S1x16_S256x16_0_1 (broadcastInDim Cert.ReferenceIdeal.S1x16 ![1] Cert.ReferenceIdeal.Facts₀.bcast_S16_S1x16_1 bl1)))
            (broadcastInDim Cert.ReferenceIdeal.S256x16 ![] Cert.ReferenceIdeal.Facts₀.bcast_S_S256x16 (constant (F := F) Cert.ReferenceIdeal.S_ .f32 0x00000000#32)))
          (V c main_arg10 : FVec F S16x1 .f32))
        (broadcastInDim Cert.ReferenceIdeal.S256x1 ![0, 1] Cert.ReferenceIdeal.Facts₀.bcast_S1x1_S256x1_0_1 (broadcastInDim Cert.ReferenceIdeal.S1x1 ![1] Cert.ReferenceIdeal.Facts₀.bcast_S1_S1x1_1 bl2)))

set_option maxHeartbeats 400000000 in
include H0 H1 H2 in
/-- Given what the three launches leave, the result buffer at the last boundary of the kernel program's run is the
    reference's result term of arguments that agree with the kernel program's. Read backwards: the final reshape; the
    third launch's output array (the head of the pooled matrix); the host operations between the second and third
    launches, down to the second launch's output array (the hidden features times the second weight matrix) and
    buffers the second launch leaves alone; the host operations between the first and second launches, down to the
    first launch's output array (the node features times the first weight matrix); the four operations before the
    first launch; the launch memory. What is left is the reference's term with the kernel program's arguments in place
    of the reference's. -/
theorem result_of_launches (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W12 m ρ c (Proc.devRef .tc main_v105) = Cert.ReferenceIdeal.Value.res_main_v111 (F := F) m' c := by
  show StableHlo.after hostOps3 (W11 m ρ c) (Proc.devRef .tc main_v105) = _
  after_results
  rw [W11_v104, H2 (V10 m ρ) c _ _ (V10_v102 m ρ c) (V10_v103 m ρ c)]
  simp only [V10, W10, W9, W8]
  after_results_simp
  simp only [W7_v52, W7_main_v1, W7_main_v3, W7_main_arg2, W7_main_arg3, W7_main_arg7, W7_main_arg8, W7_main_arg9, W7_main_arg10, W7_main_arg11]
  rw [H1 (V6 m ρ) c]
  simp only [V6, W6, W5, W4, W3]
  after_results_simp
  simp only [W2_v4, W2_main_v1, W2_main_v3, W2_main_arg1, W2_main_arg2, W2_main_arg3, W2_main_arg5, W2_main_arg6, W2_main_arg7, W2_main_arg8, W2_main_arg9, W2_main_arg10, W2_main_arg11]
  rw [H0 (V1 m ρ) c]
  simp only [V1, W1]
  after_results_simp
  unfold Cert.ReferenceIdeal.Value.res_main_v111
  rw [h0, h1, h2, h3, h4, h5, h6, h7, h8, h9, h10, h11]
  rfl

end AnyFloats

open Cert.KernelIdeal.RegionValue in
/-- Over the extended reals the three launches leave the reference's operations of their input arrays — a matrix
    product is the sum over the contracted axis of the products however its rows are grouped, and the fused head is
    the two layers one after the other — so the kernel program's result is the reference's term. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W12 m ρ c (Proc.devRef .tc main_v105) = Cert.ReferenceIdeal.Value.res_main_v111 (F := Ideal) m' c :=
  result_of_launches (F := Ideal) m ρ (fun V c => features_projected V c) (fun V c => hidden_projected V c)
    (fun V c bl1 bl2 h102 h103 => pooled_head V c bl1 bl2 h102 h103) m' c h0 h1 h2 h3 h4 h5 h6 h7 h8 h9 h10 h11

end Cert.KernelIdeal.ResultTerm

end
-- ==== Proof.lean ====
/-
  A two-layer graph convolution with add-pooling and a two-layer head: the kernel program against its reference.

  Both programs compute, for node features X, weighted edges (row, col, w), graph labels and weights W1, b1, W2, b2,
  Wl1, bl1, Wl2, bl2: the degrees d = 1 + (sum of w over the edges entering a node) and s = d^(-1/2) where d > 0, else
  0; a convolution conv(H) = scatter over col of (H[row] · s[row] · w · s[col]) + H · s² + bias, applied as
  relu(conv(X·W1)) and then conv(· W2); the sum of the node rows per graph; and relu(U·Wl1 + bl1)·Wl2 + bl2 of the
  pooled matrix U. Everything but the three matrix-product stages is the same sequence of host operations in both
  programs. The kernel program forms X·W1 and H·W2 by a kernel that multiplies ten thousand rows at a time (casting
  the operands to a narrower float format first, which is the identity over the extended reals), and the head by one
  kernel that does both layers on the whole pooled matrix; the reference uses the host's matrix product. Over the
  extended reals a matrix product is, entry by entry, the sum over the contracted axis of the products, whichever
  program forms it and however its rows are grouped, so the two results are one term of the arguments: no finiteness
  of the inputs is used.

  The frames of the two kernel programs are the generated ones; the reference's frame is its generated run with the
  result dropped; the idealization rewrote nothing, so there is nothing to preserve; the equivalence is the kernel
  program's run with its result named (NamedRun) and the reading of that result as the reference's term (ResultTerm,
  over ProjectFeatures, ProjectHidden and PooledHead for the three launches).
-/
import proofs.«168740_j73469710565617_1_alg».proof.Defs
import proofs.«168740_j73469710565617_1_alg».proof.Proof.Gen.Kernel
import proofs.«168740_j73469710565617_1_alg».proof.Proof.Gen.Kernel.Frame
import proofs.«168740_j73469710565617_1_alg».proof.Proof.Gen.KernelIdeal
import proofs.«168740_j73469710565617_1_alg».proof.Proof.Gen.KernelIdeal.Frame
import proofs.«168740_j73469710565617_1_alg».proof.Proof.Gen.ReferenceIdeal
import proofs.«168740_j73469710565617_1_alg».proof.Proof.Gen.Pre_finite_inputs
import proofs.«168740_j73469710565617_1_alg».proof.Proof.Gen.ReferenceIdeal.Run
import proofs.«168740_j73469710565617_1_alg».proof.Proof.NamedRun
import proofs.«168740_j73469710565617_1_alg».proof.Proof.ResultTerm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is host operations only: its run states the result and the unchanged arguments; the frame keeps the
    arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals the kernel program ends with its result buffer at the value the reference's run ends with,
    from memories that agree on the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v105),
    Cert.KernelIdeal.NamedRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  exact (Cert.KernelIdeal.ResultTerm.result_eq m ρ m' c h0 h1 h2 h3 h4 h5 h6 h7 h8 h9 h10 h11).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
